-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S262144x64 : Shape := ⟨2, ![262144, 64]⟩
abbrev S64x65 : Shape := ⟨2, ![64, 65]⟩
abbrev S64 : Shape := ⟨1, ![64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S64x65 : S_.BroadcastsInDim S64x65 (![] : Fin 0 → Fin S64x65.rank)
  reducesTo_S64x65_S_d0_1 : S64x65.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x65 .f32) (main_arg8 : FVec F S64 .f32) (main_v33 : IVec S_ 1) : IVec S_ 1 :=
  let main_v34 : FVec F S64x65 .f32 := Host.absf main_arg7
  let main_cst_12 : FVec F S_ .f32 := constant S_ .f32 0x7F800000#32
  let main_v35 : FVec F S64x65 .f32 := broadcastInDim S64x65 ![] bcast_S_S64x65 main_cst_12
  let main_v36 : IVec S64x65 1 := cmpf .olt main_v34 main_v35
  let main_c_13 : IVec S_ 1 := constantI S_ 1 1#1
  let main_v37 : IVec S_ 1 := (fun x v => Host.reduce IntOp.andi x v reducesTo_S64x65_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x65 .f32) (main_arg6 : FVec F S64 .f32) (main_arg7 : FVec F S64x65 .f32) (main_arg8 : FVec F S64 .f32) (main_v13 : IVec S_ 1) (main_v16 : IVec S64x65 1) : IVec S_ 1 :=
  let main_c_5 : IVec S_ 1 := constantI S_ 1 1#1
  let main_v17 : IVec S_ 1 := (fun x v => Host.reduce IntOp.andi x v reducesTo_S64x65_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x65 .f32 := Host.absf main_arg5
  let main_cst_8 : FVec F S_ .f32 := constant S_ .f32 0x7F800000#32
  let main_v25 : FVec F S64x65 .f32 := broadcastInDim S64x65 ![] bcast_S_S64x65 main_cst_8
  let main_v26 : IVec S64x65 1 := cmpf .olt main_v24 main_v25
  let main_c_9 : IVec S_ 1 := constantI S_ 1 1#1
  let main_v27 : IVec S_ 1 := (fun x v => Host.reduce IntOp.andi x v reducesTo_S64x65_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1 .f32) (main_arg1 : FVec F S262144x64 .f32) (main_arg2 : FVec F S262144x64 .f32) (main_arg3 : FVec F S64x65 .f32) (main_arg4 : FVec F S64 .f32) (main_arg5 : FVec F S64x65 .f32) (main_arg6 : FVec F S64 .f32) (main_arg7 : FVec F S64x65 .f32) (main_arg8 : FVec F S64 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S64x65 .f32 := Host.absf main_arg3
  let main_cst_4 : FVec F S_ .f32 := constant S_ .f32 0x7F800000#32
  let main_v15 : FVec F S64x65 .f32 := broadcastInDim S64x65 ![] bcast_S_S64x65 main_cst_4
  let main_v16 : IVec S64x65 1 := cmpf .olt main_v14 main_v15
  fn_part1 (F := F) main_arg4 main_arg5 main_arg6 main_arg7 main_arg8 main_v13 main_v16
-- ==== Kernel.lean ====
abbrev S1 : Shape := ⟨1, ![1]⟩
abbrev S262144x64 : Shape := ⟨2, ![262144, 64]⟩
abbrev S64x65 : Shape := ⟨2, ![64, 65]⟩
abbrev S64 : Shape := ⟨1, ![64]⟩
abbrev S64x1 : Shape := ⟨2, ![64, 1]⟩
abbrev S64x64 : Shape := ⟨2, ![64, 64]⟩
abbrev S_ : Shape := ⟨0, ![]⟩
abbrev S1x64 : Shape := ⟨2, ![1, 64]⟩
abbrev S262144x1 : Shape := ⟨2, ![262144, 1]⟩
abbrev S4096x64 : Shape := ⟨2, ![4096, 64]⟩
abbrev S4096x1 : Shape := ⟨2, ![4096, 1]⟩
abbrev S4096 : Shape := ⟨1, ![4096]⟩

abbrev nBuf : Space → Nat
  | .hbm => 41
  | .vmem => 17
  | .smem => 0
  | _ => 0

abbrev bufTy : (tb : Table) → Fin (tcTables nBuf tb) → BufTy
  | .hbm, ⟨0, _⟩ => ⟨S1, .f32⟩
  | .hbm, ⟨1, _⟩ => ⟨S262144x64, .f32⟩
  | .hbm, ⟨2, _⟩ => ⟨S262144x64, .f32⟩
  | .hbm, ⟨3, _⟩ => ⟨S64x65, .f32⟩
  | .hbm, ⟨4, _⟩ => ⟨S64, .f32⟩
  | .hbm, ⟨5, _⟩ => ⟨S64x65, .f32⟩
  | .hbm, ⟨6, _⟩ => ⟨S64, .f32⟩
  | .hbm, ⟨7, _⟩ => ⟨S64x65, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x64, .f32⟩
  | .hbm, ⟨12, _⟩ => ⟨S64x1, .f32⟩
  | .hbm, ⟨13, _⟩ => ⟨S64, .f32⟩
  | .hbm, ⟨14, _⟩ => ⟨S64x64, .f32⟩
  | .hbm, ⟨15, _⟩ => ⟨S64x1, .f32⟩
  | .hbm, ⟨16, _⟩ => ⟨S64, .f32⟩
  | .hbm, ⟨17, _⟩ => ⟨S64x64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S1x64, .f32⟩
  | .hbm, ⟨31, _⟩ => ⟨S64x64, .f32⟩
  | .hbm, ⟨32, _⟩ => ⟨S64x64, .bf16⟩
  | .hbm, ⟨33, _⟩ => ⟨S64x64, .f32⟩
  | .hbm, ⟨34, _⟩ => ⟨S64x64, .bf16⟩
  | .hbm, ⟨35, _⟩ => ⟨S64x64, .f32⟩
  | .hbm, ⟨36, _⟩ => ⟨S64x64, .bf16⟩
  | .hbm, ⟨37, _⟩ => ⟨S64x64, .bf16⟩
  | .hbm, ⟨38, _⟩ => ⟨S262144x64, .bf16⟩
  | .hbm, ⟨39, _⟩ => ⟨S262144x64, .f32⟩
  | .hbm, ⟨40, _⟩ => ⟨S262144x1, .f32⟩
  | .local _ .vmem, ⟨0, _⟩ => ⟨S4096x64, .f32⟩
  | .local _ .vmem, ⟨1, _⟩ => ⟨S4096x64, .f32⟩
  | .local _ .vmem, ⟨2, _⟩ => ⟨S4096x64, .bf16⟩
  | .local _ .vmem, ⟨3, _⟩ => ⟨S4096x64, .bf16⟩
  | .local _ .vmem, ⟨4, _⟩ => ⟨S64x64, .f32⟩
  | .local _ .vmem, ⟨5, _⟩ => ⟨S64x64, .bf16⟩
  | .local _ .vmem, ⟨6, _⟩ => ⟨S64x64, .f32⟩
  | .local _ .vmem, ⟨7, _⟩ => ⟨S64x64, .bf16⟩
  | .local _ .vmem, ⟨8, _⟩ => ⟨S64x64, .bf16⟩
  | .local _ .vmem, ⟨9, _⟩ => ⟨S64x64, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S4096x64, .f32⟩
  | .local _ .vmem, ⟨14, _⟩ => ⟨S4096x64, .f32⟩
  | .local _ .vmem, ⟨15, _⟩ => ⟨S4096x1, .f32⟩
  | .local _ .vmem, ⟨16, _⟩ => ⟨S4096x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S64x65_S64x1_0_0 : S64x65.Slices ![0, 0] S64x1
  shapeCasts_S64x1_S64 : S64x1.ShapeCasts S64
  slices_S64x65_S64x64_0_1 : S64x65.Slices ![0, 1] S64x64
  shapeCasts_S1_S_ : S1.ShapeCasts S_
  bcast_S_S64 : S_.BroadcastsInDim S64 (![] : Fin 0 → Fin S64.rank)
  shapeCasts_S64_S1x64 : S64.ShapeCasts S1x64
  transposes_S64x64_S64x64_1_0 : S64x64.Transposes [1, 0] S64x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .bf16 = 32 ∨ (Rect.block (s := S262144x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S262144x64.size a
  hwx0_11 : ∀ i : grid0.Coords, EltTy.bits .f32 = 32 ∨ (Rect.block (s := S262144x64) S4096x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x1.size a ≤ S262144x1.size a
  hwx0_12 : ∀ i : grid0.Coords, EltTy.bits .f32 = 32 ∨ (Rect.block (s := S262144x1) S4096x1.size (cc0_transform_12 i) (hinb0_12 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30_0) S4096x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v30_1) S4096x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1 : Shape := ⟨1, ![1]⟩
abbrev S262144x64 : Shape := ⟨2, ![262144, 64]⟩
abbrev S64x65 : Shape := ⟨2, ![64, 65]⟩
abbrev S64 : Shape := ⟨1, ![64]⟩
abbrev S1x1 : Shape := ⟨2, ![1, 1]⟩
abbrev S262144x1 : Shape := ⟨2, ![262144, 1]⟩
abbrev S262144x65 : Shape := ⟨2, ![262144, 65]⟩
abbrev S_ : Shape := ⟨0, ![]⟩
abbrev S65x64 : Shape := ⟨2, ![65, 64]⟩
abbrev S1x64 : Shape := ⟨2, ![1, 64]⟩
abbrev S262144 : Shape := ⟨1, ![262144]⟩

abbrev nBuf : Space → Nat
  | .hbm => 71
  | .vmem => 0
  | .smem => 0
  | _ => 0

abbrev bufTy : (tb : Table) → Fin (tcTables nBuf tb) → BufTy
  | .hbm, ⟨0, _⟩ => ⟨S1, .f32⟩
  | .hbm, ⟨1, _⟩ => ⟨S262144x64, .f32⟩
  | .hbm, ⟨2, _⟩ => ⟨S262144x64, .f32⟩
  | .hbm, ⟨3, _⟩ => ⟨S64x65, .f32⟩
  | .hbm, ⟨4, _⟩ => ⟨S64, .f32⟩
  | .hbm, ⟨5, _⟩ => ⟨S64x65, .f32⟩
  | .hbm, ⟨6, _⟩ => ⟨S64, .f32⟩
  | .hbm, ⟨7, _⟩ => ⟨S64x65, .f32⟩
  | .hbm, ⟨8, _⟩ => ⟨S64, .f32⟩
  | .hbm, ⟨9, _⟩ => ⟨S1x1, .f32⟩
  | .hbm, ⟨10, _⟩ => ⟨S262144x1, .f32⟩
  | .hbm, ⟨11, _⟩ => ⟨S262144x65, .f32⟩
  | .hbm, ⟨12, _⟩ => ⟨S_, .f32⟩
  | .hbm, ⟨13, _⟩ => ⟨S262144x1, .f32⟩
  | .hbm, ⟨14, _⟩ => ⟨S65x64, .f32⟩
  | .hbm, ⟨15, _⟩ => ⟨S262144x64, .f32⟩
  | .hbm, ⟨16, _⟩ => ⟨S1x64, .f32⟩
  | .hbm, ⟨17, _⟩ => ⟨S262144x64, .f32⟩
  | .hbm, ⟨18, _⟩ => ⟨S262144x64, .f32⟩
  | .hbm, ⟨19, _⟩ => ⟨S_, .f32⟩
  | .hbm, ⟨20, _⟩ => ⟨S262144x64, .f32⟩
  | .hbm, ⟨21, _⟩ => ⟨S262144x64, .f32⟩
  | .hbm, ⟨22, _⟩ => ⟨S_, .f32⟩
  | .hbm, ⟨23, _⟩ => ⟨S262144x64, .f32⟩
  | .hbm, ⟨24, _⟩ => ⟨S262144x64, .i1⟩
  | .hbm, ⟨25, _⟩ => ⟨S_, .f32⟩
  | .hbm, ⟨26, _⟩ => ⟨S262144x64, .f32⟩
  | .hbm, ⟨27, _⟩ => ⟨S262144x65, .f32⟩
  | .hbm, ⟨28, _⟩ => ⟨S_, .f32⟩
  | .hbm, ⟨29, _⟩ => ⟨S262144x1, .f32⟩
  | .hbm, ⟨30, _⟩ => ⟨S65x64, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S262144x64, .f32⟩
  | .hbm, ⟨40, _⟩ => ⟨S262144x64, .i1⟩
  | .hbm, ⟨41, _⟩ => ⟨S_, .f32⟩
  | .hbm, ⟨42, _⟩ => ⟨S262144x64, .f32⟩
  | .hbm, ⟨43, _⟩ => ⟨S262144x65, .f32⟩
  | .hbm, ⟨44, _⟩ => ⟨S_, .f32⟩
  | .hbm, ⟨45, _⟩ => ⟨S262144x1, .f32⟩
  | .hbm, ⟨46, _⟩ => ⟨S65x64, .f32⟩
  | .hbm, ⟨47, _⟩ => ⟨S262144x64, .f32⟩
  | .hbm, ⟨48, _⟩ => ⟨S1x64, .f32⟩
  | .hbm, ⟨49, _⟩ => ⟨S262144x64, .f32⟩
  | .hbm, ⟨50, _⟩ => ⟨S262144x64, .f32⟩
  | .hbm, ⟨51, _⟩ => ⟨S262144x65, .f32⟩
  | .hbm, ⟨52, _⟩ => ⟨S262144x1, .f32⟩
  | .hbm, ⟨53, _⟩ => ⟨S262144x64, .f32⟩
  | .hbm, ⟨54, _⟩ => ⟨S_, .f32⟩
  | .hbm, ⟨55, _⟩ => ⟨S262144x64, .f32⟩
  | .hbm, ⟨56, _⟩ => ⟨S262144x64, .f32⟩
  | .hbm, ⟨57, _⟩ => ⟨S262144x65, .f32⟩
  | .hbm, ⟨58, _⟩ => ⟨S262144x1, .f32⟩
  | .hbm, ⟨59, _⟩ => ⟨S262144x64, .f32⟩
  | .hbm, ⟨60, _⟩ => ⟨S_, .f32⟩
  | .hbm, ⟨61, _⟩ => ⟨S262144x64, .f32⟩
  | .hbm, ⟨62, _⟩ => ⟨S262144x64, .f32⟩
  | .hbm, ⟨63, _⟩ => ⟨S262144x65, .f32⟩
  | .hbm, ⟨64, _⟩ => ⟨S262144x1, .f32⟩
  | .hbm, ⟨65, _⟩ => ⟨S262144x64, .f32⟩
  | .hbm, ⟨66, _⟩ => ⟨S262144x64, .f32⟩
  | .hbm, ⟨67, _⟩ => ⟨S_, .f32⟩
  | .hbm, ⟨68, _⟩ => ⟨S262144, .f32⟩
  | .hbm, ⟨69, _⟩ => ⟨S262144x1, .f32⟩
  | .hbm, ⟨70, _⟩ => ⟨S262144x1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  shapeCasts_S1_S1x1 : S1.ShapeCasts S1x1
  bcast_S1x1_S262144x1_0_1 : S1x1.BroadcastsInDim S262144x1 (![0, 1] : Fin 2 → Fin S262144x1.rank)
  concatenates_S262144x1_S262144x64_S262144x65_d1 : Shape.Concatenates [S262144x1, S262144x64] S262144x65 1
  bcast_S_S262144x1 : S_.BroadcastsInDim S262144x1 (![] : Fin 0 → Fin S262144x1.rank)
  transposes_S64x65_S65x64_1_0 : S64x65.Transposes [1, 0] S65x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  slices_S262144x65_S262144x1_0_0 : S262144x65.Slices ![0, 0] S262144x1
  slices_S262144x65_S262144x64_0_1 : S262144x65.Slices ![0, 1] S262144x64
  reducesTo_S262144x64_S262144_d1 : S262144x64.ReducesTo [1] S262144
  h_S_ : 0 < S_.numel
  bcast_S262144_S262144x1_0 : S262144.BroadcastsInDim S262144x1 (![0] : Fin 1 → Fin S262144x1.rank)
  dot_S262144x65_S65x64_S262144x64_1_0_0_1_n_n_wf : DotDims.WF S262144x65 S65x64 S262144x64 [1] [0] [0] [1] [] []
  dot_S262144x64_S65x64_S262144x65_1_1_0_0_n_n_wf : DotDims.WF S262144x64 S65x64 S262144x65 [1] [1] [0] [0] [] []

variable [Facts₀]

def dot_S262144x65_S65x64_S262144x64_1_0_0_1_n_n : DotDims S262144x65 S65x64 S262144x64 where
  lhsContracting := [1]
  rhsContracting := [0]
  lhsNonContracting := [0]
  rhsNonContracting := [1]
  lhsBatch := []
  rhsBatch := []
  wf := dot_S262144x65_S65x64_S262144x64_1_0_0_1_n_n_wf
def dot_S262144x64_S65x64_S262144x65_1_1_0_0_n_n : DotDims S262144x64 S65x64 S262144x65 where
  lhsContracting := [1]
  rhsContracting := [1]
  lhsNonContracting := [0]
  rhsNonContracting := [0]
  lhsBatch := []
  rhsBatch := []
  wf := dot_S262144x64_S65x64_S262144x65_1_1_0_0_n_n_wf

class Facts : Prop extends Facts₀ where

variable [Facts]
-- ==== Proof.RowSpec.lean ====
/-
  The mathematics of one row, with no program in sight.

  The network is three affine layers with a ramp between them; each layer sees the time `t` as an extra input
  column.  One row `z` of the batch goes forward through the layers, and one row `e` of probe signs is pulled
  backward through the transposed layers, gated at each ramp by the sign of that layer's pre-activation.  The two
  results per row are the last layer's output and minus the inner product of the pulled-back row with `e`.

  A layer's weight matrix `W` has 65 columns: column 0 multiplies the time, columns 1 … 64 the 64 inputs.  There are
  two ways of spelling the pre-activation at unit `j`:
    * split:  (Σ k < 64, x k · W j (k+1)) + (b j + t · W j 0)   — the time's share folded into the bias first;
    * joined: (Σ k < 65, [t, x] k · W j k) + b j                 — the time prepended to the input row.
  Peeling the sum's first term and re-associating shows they agree on all extended reals; only commutativity and
  associativity of `+` are used, so no finiteness is needed (`joined_eq_split`).
-/
import Idealize.ShloMosaic.PureOps.Ideal
import Idealize.ShloMosaic.PureOps.Ideal.Laws
import Idealize.ShloMosaic.Lib.ValueIdx

noncomputable section

namespace Cert.Mlp

open Idealize.ShloMosaic

/-- The f32 zero word: the ramp's threshold and the value a closed gate lets through. -/
abbrev Z : EReal := Ideal.ofBits .f32 0x00000000#32

/-- An affine layer on one row: `x ↦ x · A + c`, unit `j`. -/
def aff (A : Fin 64 → Fin 64 → EReal) (c : Fin 64 → EReal) (x : Fin 64 → EReal) (j : Fin 64) : EReal :=
  (∑ k : Fin 64, x k * A k j) + c j

/-- The ramp. -/
def ramp (p : Fin 64 → EReal) (j : Fin 64) : EReal := max (p j) Z

/-- The ramp's gate: open where the pre-activation is positive. -/
def gate (p : Fin 64 → EReal) (j : Fin 64) : BitVec 1 := Ideal.cmp .ogt (p j) Z

/-- A row pulled back through a layer: `g ↦ g · B`, input `k`. -/
def pull (B : Fin 64 → Fin 64 → EReal) (g : Fin 64 → EReal) (k : Fin 64) : EReal := ∑ j : Fin 64, g j * B j k

/-- A row let through a gate. -/
def thru (c : Fin 64 → BitVec 1) (g : Fin 64 → EReal) (k : Fin 64) : EReal := Scalar.select (c k) (g k) Z

/-- The first layer's pre-activation and the second's. -/
def pre1 (A0 : Fin 64 → Fin 64 → EReal) (c0 : Fin 64 → EReal) (z : Fin 64 → EReal) : Fin 64 → EReal := aff A0 c0 z
def pre2 (A0 A1 : Fin 64 → Fin 64 → EReal) (c0 c1 : Fin 64 → EReal) (z : Fin 64 → EReal) : Fin 64 → EReal :=
  aff A1 c1 (ramp (pre1 A0 c0 z))

/-- The forward result of one row. -/
def rowOut (A0 A1 A2 : Fin 64 → Fin 64 → EReal) (c0 c1 c2 : Fin 64 → EReal) (z : Fin 64 → EReal) : Fin 64 → EReal :=
  aff A2 c2 (ramp (pre2 A0 A1 c0 c1 z))

/-- The probe row pulled back through the three layers, gated at the two ramps. -/
def rowBack (A0 A1 : Fin 64 → Fin 64 → EReal) (c0 c1 : Fin 64 → EReal) (B0 B1 B2 : Fin 64 → Fin 64 → EReal)
    (z e : Fin 64 → EReal) : Fin 64 → EReal :=
  pull B0 (thru (gate (pre1 A0 c0 z)) (pull B1 (thru (gate (pre2 A0 A1 c0 c1 z)) (pull B2 e))))

/-- Minus the inner product of the pulled-back row with the probe row, as `0 - Σ`. -/
def rowNeg (A0 A1 : Fin 64 → Fin 64 → EReal) (c0 c1 : Fin 64 → EReal) (B0 B1 B2 : Fin 64 → Fin 64 → EReal)
    (z e : Fin 64 → EReal) : EReal :=
  Z - ∑ k : Fin 64, rowBack A0 A1 c0 c1 B0 B1 B2 z e k * e k

/-- `0 - s` is `-(0 + s)` on the extended reals. -/
theorem zero_sub_eq_neg_zero_add (s : EReal) : Z - s = -(Z + s) := by
  show Ideal.ofBits .f32 0x00000000#32 - s = -(Ideal.ofBits .f32 0x00000000#32 + s)
  rw [Ideal.ofBits_zero_f32, zero_add, sub_eq_add_neg, zero_add]

/-! ## A weight matrix with the time's column in front -/

/-- The forward operand of a layer: the input columns of `W`, transposed. -/
def fwd (W : Fin 64 → Fin 65 → EReal) (k j : Fin 64) : EReal := W j k.succ

/-- The backward operand of a layer: the input columns of `W`. -/
def bwd (W : Fin 64 → Fin 65 → EReal) (j k : Fin 64) : EReal := W j k.succ

/-- The bias with the time's share folded in. -/
def tbias (W : Fin 64 → Fin 65 → EReal) (b : Fin 64 → EReal) (t : EReal) (j : Fin 64) : EReal := b j + t * W j 0

/-- The pre-activation spelt with the time prepended to the input row. -/
def joined (W : Fin 64 → Fin 65 → EReal) (b : Fin 64 → EReal) (t : EReal) (x : Fin 64 → EReal) (j : Fin 64) : EReal :=
  (∑ k : Fin 65, (Fin.cases t x k : EReal) * W j k) + b j

/-- The two spellings of a layer agree: peel the sum's first term, then re-associate. -/
theorem joined_eq_split (W : Fin 64 → Fin 65 → EReal) (b : Fin 64 → EReal) (t : EReal) (x : Fin 64 → EReal) (j : Fin 64) :
    joined W b t x j = aff (fwd W) (tbias W b t) x j := by
  unfold joined aff fwd tbias
  rw [Fin.sum_univ_succ]
  simp only [Fin.cases_zero, Fin.cases_succ]
  rw [add_comm (t * W j 0), add_assoc, add_comm (t * W j 0)]

/-- The pulled-back row spelt over all 65 columns and cut to the input columns. -/
theorem pull_bwd (W : Fin 64 → Fin 65 → EReal) (g : Fin 64 → EReal) (k : Fin 64) :
    pull (bwd W) g k = ∑ j : Fin 64, g j * W j k.succ := rfl

end Cert.Mlp

end
-- ==== Proof.LibColumns.lean ====
/-
  Two layout operations on a column, read at an index: a vector of length `a` cast to an `a × 1` column,
  and an `a × 1` column broadcast along the rows of an `a × b` array.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What the kernel's body computes for one block of 4096 rows, entry by entry.

  Each of the body's two stored values is read at a block index `(p, q)` (row `p` of the block, column `q`) and
  found to be the one-row mathematics of RowSpec applied to row `p` of the block's `z` and `e` rows and to the
  weight and bias blocks as they are loaded: a matrix product into a zero accumulator is the plain sum over the
  contracted axis, a row of biases broadcast over the block contributes its entry at the column, a change of float
  format is the identity, and the lane sum followed by the cast to a column is the sum over the row.
-/
import proofs.«148937_j31044023616347_2_alg».proof.Proof.Gen.KernelIdeal.Skeleton
import proofs.«148937_j31044023616347_2_alg».proof.Proof.RowSpec
import proofs.«148937_j31044023616347_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Mlp

/-! ## The body's matrix product at an entry -/

theorem lhs0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A block times a 64 × 64 matrix, into a zero accumulator, at entry `(p, q)`: the sum over the 64 shared
    coordinates of the block's row `p` against the matrix's column `q`. -/
theorem mm_apply {φ₁ φ₂ : FTy} (prec : Option ContractPrecision) (l : FVec Ideal S4096x64 φ₁) (r : FVec Ideal S64x64 φ₂)
    (p : Fin 4096) (q : Fin 64) :
    matmul dot_S4096x64_S64x64_S4096x64_1_0_0_1_n_n prec l r (constant S4096x64 .f32 0x00000000#32) (ix2 p q)
      = ∑ k : Fin 64, l (ix2 p k) * r (ix2 k q) := by
  refine (Ideal.matmul_constant_zero_apply dot_S4096x64_S64x64_S4096x64_1_0_0_1_n_n prec l r (ix2 p q)).trans ?_
  rw [← Equiv.sum_comp (ValueIdx.contrEquiv1 dot_S4096x64_S64x64_S4096x64_1_0_0_1_n_n 64 rfl rfl).symm]
  refine Finset.sum_congr rfl fun k _ => ?_
  have hk := ValueIdx.contrEquiv1_symm_val dot_S4096x64_S64x64_S4096x64_1_0_0_1_n_n 64 rfl rfl k
  have el : dot_S4096x64_S64x64_S4096x64_1_0_0_1_n_n.lhsIdx (ix2 p q) ((ValueIdx.contrEquiv1 dot_S4096x64_S64x64_S4096x64_1_0_0_1_n_n 64 rfl rfl).symm k) = ix2 p k := funext fun a => Fin.ext (by
    match a with
    | ⟨0, _⟩ => exact lhs0 _ _
    | ⟨1, _⟩ => exact (lhs1 _ _).trans hk)
  have er : dot_S4096x64_S64x64_S4096x64_1_0_0_1_n_n.rhsIdx (ix2 p q) ((ValueIdx.contrEquiv1 dot_S4096x64_S64x64_S4096x64_1_0_0_1_n_n 64 rfl rfl).symm k) = ix2 k q := funext fun a => Fin.ext (by
    match a with
    | ⟨0, _⟩ => exact (rhs0 _ _).trans hk
    | ⟨1, _⟩ => exact rhs1 _ _)
  rw [el, er]

/-- A row of 64 biases broadcast over the block, at `(p, q)`: the bias at `q`. -/
theorem bias_apply (v : FVec Ideal S1x64 .f32) (p : Fin 4096) (q : Fin 64) :
    broadcastTo S4096x64 v broadcasts_S1x64_S4096x64 (ix2 p q) = v (ix2 (0 : Fin 1) q) :=
  broadcastTo_1b_ab_apply v broadcasts_S1x64_S4096x64 p q

/-- The lane sum of a block, at row `p`: the sum over the row's 64 entries. -/
theorem lane_sum (src : FVec Ideal S4096x64 .f32) (p : Fin 4096) :
    multiReduction .add [1] S4096 src 0x00000000#32 reduces_S4096x64_S4096 (.inl rfl) rfl (ix1 p)
      = ∑ k : Fin 64, src (ix2 p k) := by
  refine (Ideal.multiReduction_add_single src 0x00000000#32 reduces_S4096x64_S4096 (.inl rfl) rfl (ix1 p)).trans ?_
  refine Finset.sum_congr rfl fun k _ => congrArg src (funext fun a => ?_)
  match a with
  | ⟨0, _⟩ => rfl
  | ⟨1, _⟩ => rfl

/-! ## The body's values at an entry -/

/-- The first layer's pre-activation on the block. -/
theorem pay9_apply (v0 : FVec Ideal S4096x64 .f32) (v3 : FVec Ideal S64x64 .f32) (v15 : FVec Ideal S1x64 .f32)
    (p : Fin 4096) (q : Fin 64) :
    k0_pay9 (F := Ideal) v0 v3 v15 (ix2 p q)
      = pre1 (fun k j => v3 (ix2 k j)) (fun j => v15 (ix2 (0 : Fin 1) j)) (fun k => v0 (ix2 p k)) q := by
  unfold k0_pay9
  try dsimp only
  rw [shapeCast_self, shapeCast_self, addf_apply, mm_apply, bias_apply]
  rfl

/-- The first ramp's gate on the block. -/
theorem pay10_apply (v0 : FVec Ideal S4096x64 .f32) (v3 : FVec Ideal S64x64 .f32) (v15 : FVec Ideal S1x64 .f32)
    (p : Fin 4096) (q : Fin 64) :
    k0_pay10 (F := Ideal) v0 v3 v15 (ix2 p q)
      = gate (pre1 (fun k j => v3 (ix2 k j)) (fun j => v15 (ix2 (0 : Fin 1) j)) (fun k => v0 (ix2 p k))) q := by
  unfold k0_pay10
  try dsimp only
  show Ideal.cmp .ogt (k0_pay9 (F := Ideal) v0 v3 v15 (ix2 p q)) Z = _
  rw [pay9_apply]
  rfl

/-- The second layer's pre-activation on the block. -/
theorem pay11_apply (v0 : FVec Ideal S4096x64 .f32) (v3 v7 : FVec Ideal S64x64 .f32) (v15 v17 : FVec Ideal S1x64 .f32)
    (p : Fin 4096) (q : Fin 64) :
    k0_pay11 (F := Ideal) v0 v3 v7 v15 v17 (ix2 p q)
      = pre2 (fun k j => v3 (ix2 k j)) (fun k j => v7 (ix2 k j)) (fun j => v15 (ix2 (0 : Fin 1) j))
          (fun j => v17 (ix2 (0 : Fin 1) j)) (fun k => v0 (ix2 p k)) q := by
  unfold k0_pay11
  try dsimp only
  rw [shapeCast_self, shapeCast_self, addf_apply, mm_apply, bias_apply]
  refine congrArg (· + v17 (ix2 (0 : Fin 1) q)) (Finset.sum_congr rfl fun k _ => ?_)
  show max (k0_pay9 (F := Ideal) v0 v3 v15 (ix2 p k)) Z * _ = _
  rw [pay9_apply]
  rfl

/-- The stored forward value on the block, over any second pre-activation `v30`. -/
theorem pay1_apply (v12 : FVec Ideal S64x64 .bf16) (v20 : FVec Ideal S1x64 .f32) (v30 : FVec Ideal S4096x64 .f32)
    (p : Fin 4096) (q : Fin 64) :
    k0_pay1 (F := Ideal) v12 v20 v30 (ix2 p q)
      = aff (fun k j => v12 (ix2 k j)) (fun j => v20 (ix2 (0 : Fin 1) j)) (ramp fun k => v30 (ix2 p k)) q := by
  unfold k0_pay1
  try dsimp only
  rw [addf_apply, mm_apply, bias_apply]
  rfl

/-- The stored backward value on the block, over any first gate `v25`, second pre-activation `v30` and threshold `v31`. -/
theorem pay2_apply (v2 : FVec Ideal S4096x64 .bf16) (v6 v10 v14 : FVec Ideal S64x64 .bf16) (v25 : IVec S4096x64 1)
    (v30 v31 : FVec Ideal S4096x64 .f32) (p : Fin 4096) (u : Fin 1) :
    k0_pay2 (F := Ideal) v2 v6 v10 v14 v25 v30 v31 (ix2 p u)
      = Z - ∑ k : Fin 64,
          pull (fun j k => v6 (ix2 j k)) (thru (fun k => v25 (ix2 p k))
            (pull (fun j k => v10 (ix2 j k)) (thru (fun k => Ideal.cmp .ogt (v30 (ix2 p k)) (v31 (ix2 p k)))
              (pull (fun j k => v14 (ix2 j k)) fun k => v2 (ix2 p k))))) k * v2 (ix2 p k) := by
  unfold k0_pay2
  try dsimp only
  rw [subf_apply, shapeCast_a_a1_apply, lane_sum]
  refine congrArg (Z - ·) (Finset.sum_congr rfl fun k _ => ?_)
  rw [mulf_apply, mm_apply]
  refine congrArg (· * v2 (ix2 p k)) (Finset.sum_congr rfl fun j _ => ?_)
  refine congrArg (· * v6 (ix2 j k)) ?_
  show Scalar.select (v25 (ix2 p j)) (matmul dot_S4096x64_S64x64_S4096x64_1_0_0_1_n_n none _ v10 (constant S4096x64 .f32 0x00000000#32) (ix2 p j)) Z = _
  rw [mm_apply]
  refine congrArg (Scalar.select (v25 (ix2 p j)) · Z) (Finset.sum_congr rfl fun i _ => ?_)
  refine congrArg (· * v10 (ix2 i j)) ?_
  show Scalar.select (Ideal.cmp .ogt (v30 (ix2 p i)) (v31 (ix2 p i))) (matmul dot_S4096x64_S64x64_S4096x64_1_0_0_1_n_n none v2 v14 (constant S4096x64 .f32 0x00000000#32) (ix2 p i)) Z = _
  rw [mm_apply]
  rfl

end Cert.KernelIdeal.Pay

end
-- ==== Proof.Entry.lean ====
/-
  What the region finds in each window's array when it is entered.

  Before the region the program cuts each 64 × 65 weight matrix into its time column and its 64 input columns, folds
  the time's share `t · W[:, 0]` into the bias, transposes the input columns for the forward products and changes
  formats (the identity on extended reals).  Read at an index, every one of these arrays is an entry of an argument:
  the forward operand at `(k, j)` is `W j (k+1)`, the backward operand at `(j, k)` is `W j (k+1)`, the folded bias at
  `(0, j)` is `b j + t · W j 0`, the probe signs are the argument's.
-/
import proofs.«148937_j31044023616347_2_alg».proof.Proof.Gen.KernelIdeal.Frame
import proofs.«148937_j31044023616347_2_alg».proof.Proof.RowSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Cert.Mlp

variable (m : (ℓ : Loc nD τ sig) → Buf (Elt Ideal) ℓ)

/-! ## The arguments by coordinates -/

/-- The time. -/
def tt (c : Dev nD) : EReal := (m ((c : Thread nD τ).loc main_arg0) : S1.Idx → EReal) (ix1 (0 : Fin 1))
/-- Row `r` of the batch and of the probe signs. -/
def zrow (c : Dev nD) (r : Fin 262144) (k : Fin 64) : EReal := (m ((c : Thread nD τ).loc main_arg1) : S262144x64.Idx → EReal) (ix2 r k)
def erow (c : Dev nD) (r : Fin 262144) (k : Fin 64) : EReal := (m ((c : Thread nD τ).loc main_arg2) : S262144x64.Idx → EReal) (ix2 r k)
/-- The three weight matrices and biases. -/
def W0 (c : Dev nD) (j : Fin 64) (k : Fin 65) : EReal := (m ((c : Thread nD τ).loc main_arg3) : S64x65.Idx → EReal) (ix2 j k)
def b0 (c : Dev nD) (j : Fin 64) : EReal := (m ((c : Thread nD τ).loc main_arg4) : S64.Idx → EReal) (ix1 j)
def W1 (c : Dev nD) (j : Fin 64) (k : Fin 65) : EReal := (m ((c : Thread nD τ).loc main_arg5) : S64x65.Idx → EReal) (ix2 j k)
def b1 (c : Dev nD) (j : Fin 64) : EReal := (m ((c : Thread nD τ).loc main_arg6) : S64.Idx → EReal) (ix1 j)
def W2 (c : Dev nD) (j : Fin 64) (k : Fin 65) : EReal := (m ((c : Thread nD τ).loc main_arg7) : S64x65.Idx → EReal) (ix2 j k)
def b2 (c : Dev nD) (j : Fin 64) : EReal := (m ((c : Thread nD τ).loc main_arg8) : S64.Idx → EReal) (ix1 j)

/-! ## Layout steps on small shapes, read at an index -/

/-- The input columns of a 64 × 65 matrix, at `(j, k)`: column `k + 1`. -/
theorem cols_apply (X : S64x65.Idx → EReal) (j k : Fin 64) :
    extractStridedSlice S64x64 ![0, 1] X slices_S64x65_S64x64_0_1 (ix2 j k) = X (ix2 j k.succ) :=
  slice2_axis1_apply 1 X slices_S64x65_S64x64_0_1 j k k.succ (by rw [Fin.val_succ, Nat.add_comm])

/-- The time column of a 64 × 65 matrix as a vector, at `j`: column 0. -/
theorem col0_apply (X : S64x65.Idx → EReal) (j : Fin 64) :
    shapeCast S64 (extractStridedSlice S64x1 ![0, 0] X slices_S64x65_S64x1_0_0) shapeCasts_S64x1_S64 (ix1 j) = X (ix2 j (0 : Fin 65)) := by
  refine (shapeCast_apply _ shapeCasts_S64x1_S64 (ix1 j) (ix2 j (0 : Fin 1)) ?_).trans ?_
  · rw [Shape.rowMajor_val_two, Shape.rowMajor_val_one]
    show j.val * 1 + 0 = j.val
    omega
  · exact slice2_axis1_apply 0 X slices_S64x65_S64x1_0_0 j (0 : Fin 1) (0 : Fin 65) rfl

/-- The one-entry time vector as a scalar, broadcast to 64 entries, at `j`: the time. -/
theorem time_apply (X : S1.Idx → EReal) (j : Fin 64) :
    broadcastInDim S64 ![] bcast_S_S64 (shapeCast S_ X shapeCasts_S1_S_) (ix1 j) = X (ix1 (0 : Fin 1)) := by
  refine (broadcastInDim_apply _ bcast_S_S64 _ (ix1 j) ix0 (fun a => a.elim0)).trans ?_
  refine shapeCast_apply X shapeCasts_S1_S_ ix0 (ix1 (0 : Fin 1)) ?_
  rw [Shape.rowMajor_val_one]
  have h1 : (S_.rowMajor ix0).val < 1 := (S_.rowMajor ix0).isLt
  show 0 = _
  omega

/-- The folded bias `b + t · W[:, 0]` as a 1 × 64 row, at `(0, j)`. -/
theorem folded_apply (T : S1.Idx → EReal) (X : S64x65.Idx → EReal) (B : S64.Idx → EReal) (j : Fin 64) :
    shapeCast S1x64 (addf (F := Ideal) (φ := .f32) B (mulf (F := Ideal) (φ := .f32) (broadcastInDim S64 ![] bcast_S_S64 (shapeCast S_ T shapeCasts_S1_S_))
      (shapeCast S64 (extractStridedSlice S64x1 ![0, 0] X slices_S64x65_S64x1_0_0) shapeCasts_S64x1_S64))) shapeCasts_S64_S1x64 (ix2 (0 : Fin 1) j)
      = B (ix1 j) + T (ix1 (0 : Fin 1)) * X (ix2 j (0 : Fin 65)) := by
  rw [shapeCast_a_1a_apply, addf_apply, mulf_apply, time_apply, col0_apply]

/-! ## The window arrays at an index -/

/-- Window 2: the first layer's forward operand. -/
theorem V22 (c : Dev nD) (k j : Fin 64) : (V m c main_v22 : S64x64.Idx → EReal) (ix2 k j) = fwd (W0 m c) k j := by
  have e : (V m c main_v22 : S64x64.Idx → EReal) = transpose S64x64 [1, 0] (extractStridedSlice S64x64 ![0, 1] (m ((c : Thread nD τ).loc main_arg3) : S64x65.Idx → EReal) slices_S64x65_S64x64_0_1) transposes_S64x64_S64x64_1_0 := by
    dsimp only [Gen.V, Gen.hostOps0]; after_results <;> rfl
  rw [e, transpose_ix2_apply, cols_apply]
  rfl

/-- Window 4: the second layer's forward operand. -/
theorem V24 (c : Dev nD) (k j : Fin 64) : (V m c main_v24 : S64x64.Idx → EReal) (ix2 k j) = fwd (W1 m c) k j := by
  have e : (V m c main_v24 : S64x64.Idx → EReal) = transpose S64x64 [1, 0] (extractStridedSlice S64x64 ![0, 1] (m ((c : Thread nD τ).loc main_arg5) : S64x65.Idx → EReal) slices_S64x65_S64x64_0_1) transposes_S64x64_S64x64_1_0 := by
    dsimp only [Gen.V, Gen.hostOps0]; after_results <;> rfl
  rw [e, transpose_ix2_apply, cols_apply]
  rfl

/-- Window 6: the third layer's forward operand. -/
theorem V27 (c : Dev nD) (k j : Fin 64) : (V m c main_v27 : S64x64.Idx → EReal) (ix2 k j) = fwd (W2 m c) k j := by
  have e : (V m c main_v27 : S64x64.Idx → EReal) = truncf (F := Ideal) .bf16 (transpose S64x64 [1, 0] (extractStridedSlice S64x64 ![0, 1] (m ((c : Thread nD τ).loc main_arg7) : S64x65.Idx → EReal) slices_S64x65_S64x64_0_1) transposes_S64x64_S64x64_1_0) bitsLt_bf16_f32 := by
    dsimp only [Gen.V, Gen.hostOps0]; after_results <;> rfl
  rw [e, truncf_apply, transpose_ix2_apply, cols_apply]
  rfl

/-- Window 3: the first layer's backward operand. -/
theorem V23 (c : Dev nD) (j k : Fin 64) : (V m c main_v23 : S64x64.Idx → EReal) (ix2 j k) = bwd (W0 m c) j k := by
  have e : (V m c main_v23 : S64x64.Idx → EReal) = truncf (F := Ideal) .bf16 (extractStridedSlice S64x64 ![0, 1] (m ((c : Thread nD τ).loc main_arg3) : S64x65.Idx → EReal) slices_S64x65_S64x64_0_1) bitsLt_bf16_f32 := by
    dsimp only [Gen.V, Gen.hostOps0]; after_results <;> rfl
  rw [e, truncf_apply, cols_apply]
  rfl

/-- Window 5: the second layer's backward operand. -/
theorem V25 (c : Dev nD) (j k : Fin 64) : (V m c main_v25 : S64x64.Idx → EReal) (ix2 j k) = bwd (W1 m c) j k := by
  have e : (V m c main_v25 : S64x64.Idx → EReal) = truncf (F := Ideal) .bf16 (extractStridedSlice S64x64 ![0, 1] (m ((c : Thread nD τ).loc main_arg5) : S64x65.Idx → EReal) slices_S64x65_S64x64_0_1) bitsLt_bf16_f32 := by
    dsimp only [Gen.V, Gen.hostOps0]; after_results <;> rfl
  rw [e, truncf_apply, cols_apply]
  rfl

/-- Window 7: the third layer's backward operand. -/
theorem V28 (c : Dev nD) (j k : Fin 64) : (V m c main_v28 : S64x64.Idx → EReal) (ix2 j k) = bwd (W2 m c) j k := by
  have e : (V m c main_v28 : S64x64.Idx → EReal) = truncf (F := Ideal) .bf16 (extractStridedSlice S64x64 ![0, 1] (m ((c : Thread nD τ).loc main_arg7) : S64x65.Idx → EReal) slices_S64x65_S64x64_0_1) bitsLt_bf16_f32 := by
    dsimp only [Gen.V, Gen.hostOps0]; after_results <;> rfl
  rw [e, truncf_apply, cols_apply]
  rfl

/-- Window 8: the first layer's folded bias. -/
theorem V13 (c : Dev nD) (j : Fin 64) : (V m c main_v13 : S1x64.Idx → EReal) (ix2 (0 : Fin 1) j) = tbias (W0 m c) (b0 m c) (tt m c) j := by
  have e : (V m c main_v13 : S1x64.Idx → EReal) = shapeCast S1x64 (addf (F := Ideal) (φ := .f32) (m ((c : Thread nD τ).loc main_arg4) : S64.Idx → EReal) (mulf (F := Ideal) (φ := .f32) (broadcastInDim S64 ![] bcast_S_S64 (shapeCast S_ (m ((c : Thread nD τ).loc main_arg0) : S1.Idx → EReal) shapeCasts_S1_S_))
      (shapeCast S64 (extractStridedSlice S64x1 ![0, 0] (m ((c : Thread nD τ).loc main_arg3) : S64x65.Idx → EReal) slices_S64x65_S64x1_0_0) shapeCasts_S64x1_S64))) shapeCasts_S64_S1x64 := by
    dsimp only [Gen.V, Gen.hostOps0]; after_results <;> rfl
  rw [e, folded_apply]
  rfl

/-- Window 9: the second layer's folded bias. -/
theorem V17 (c : Dev nD) (j : Fin 64) : (V m c main_v17 : S1x64.Idx → EReal) (ix2 (0 : Fin 1) j) = tbias (W1 m c) (b1 m c) (tt m c) j := by
  have e : (V m c main_v17 : S1x64.Idx → EReal) = shapeCast S1x64 (addf (F := Ideal) (φ := .f32) (m ((c : Thread nD τ).loc main_arg6) : S64.Idx → EReal) (mulf (F := Ideal) (φ := .f32) (broadcastInDim S64 ![] bcast_S_S64 (shapeCast S_ (m ((c : Thread nD τ).loc main_arg0) : S1.Idx → EReal) shapeCasts_S1_S_))
      (shapeCast S64 (extractStridedSlice S64x1 ![0, 0] (m ((c : Thread nD τ).loc main_arg5) : S64x65.Idx → EReal) slices_S64x65_S64x1_0_0) shapeCasts_S64x1_S64))) shapeCasts_S64_S1x64 := by
    dsimp only [Gen.V, Gen.hostOps0]; after_results <;> rfl
  rw [e, folded_apply]
  rfl

set_option maxHeartbeats 1000000 in
/-- Window 10: the third layer's folded bias. -/
theorem V21 (c : Dev nD) (j : Fin 64) : (V m c main_v21 : S1x64.Idx → EReal) (ix2 (0 : Fin 1) j) = tbias (W2 m c) (b2 m c) (tt m c) j := by
  have e : (V m c main_v21 : S1x64.Idx → EReal) = shapeCast S1x64 (addf (F := Ideal) (φ := .f32) (m ((c : Thread nD τ).loc main_arg8) : S64.Idx → EReal) (mulf (F := Ideal) (φ := .f32) (broadcastInDim S64 ![] bcast_S_S64 (shapeCast S_ (m ((c : Thread nD τ).loc main_arg0) : S1.Idx → EReal) shapeCasts_S1_S_))
      (shapeCast S64 (extractStridedSlice S64x1 ![0, 0] (m ((c : Thread nD τ).loc main_arg7) : S64x65.Idx → EReal) slices_S64x65_S64x1_0_0) shapeCasts_S64x1_S64))) shapeCasts_S64_S1x64 := by
    dsimp only [Gen.V, Gen.hostOps0]; after_results <;> rfl
  rw [e, folded_apply]
  rfl

/-- Window 1: the probe signs. -/
theorem V29 (c : Dev nD) (r : Fin 262144) (k : Fin 64) : (V m c main_v29 : S262144x64.Idx → EReal) (ix2 r k) = erow m c r k := by
  have e : (V m c main_v29 : S262144x64.Idx → EReal) = truncf (F := Ideal) .bf16 (m ((c : Thread nD τ).loc main_arg2) : S262144x64.Idx → EReal) bitsLt_bf16_f32 := by
    dsimp only [Gen.V, Gen.hostOps0]; after_results <;> rfl
  rw [e, truncf_apply]
  rfl

/-- Window 0: the batch. -/
theorem V1 (c : Dev nD) (r : Fin 262144) (k : Fin 64) : (V m c main_arg1 : S262144x64.Idx → EReal) (ix2 r k) = zrow m c r k := by
  rw [V_main_arg1]
  rfl

end Cert.KernelIdeal.Entry

end
-- ==== Proof.Spec.lean ====
/-
  The two results as whole arrays: each entry is the one-row mathematics of RowSpec at that entry's row.
  The arguments enter as plain arrays over their literal shapes; `mat`, `vec`, `rowOf` and `scal` name their
  entries by coordinates.
-/
import proofs.«148937_j31044023616347_2_alg».proof.Proof.RowSpec

noncomputable section

namespace Cert.Mlp

open Idealize.ShloMosaic Idealize.ShloMosaic.ValueIdx

/-- A 64 × 65 weight matrix, a length-64 bias, a row of the batch, and the time, by coordinates. -/
def mat (X : (⟨2, ![64, 65]⟩ : Shape).Idx → EReal) (j : Fin 64) (k : Fin 65) : EReal := X (ix2 j k)
def vec (B : (⟨1, ![64]⟩ : Shape).Idx → EReal) (j : Fin 64) : EReal := B (ix1 j)
def rowOf (X : (⟨2, ![262144, 64]⟩ : Shape).Idx → EReal) (r : Fin 262144) (k : Fin 64) : EReal := X (ix2 r k)
def scal (T : (⟨1, ![1]⟩ : Shape).Idx → EReal) : EReal := T (ix1 (0 : Fin 1))

/-- The forward result: entry `(r, j)` is unit `j` of the last layer on row `r` of the batch. -/
def outZ (t : (⟨1, ![1]⟩ : Shape).Idx → EReal) (z : (⟨2, ![262144, 64]⟩ : Shape).Idx → EReal)
    (w0 : (⟨2, ![64, 65]⟩ : Shape).Idx → EReal) (b0 : (⟨1, ![64]⟩ : Shape).Idx → EReal)
    (w1 : (⟨2, ![64, 65]⟩ : Shape).Idx → EReal) (b1 : (⟨1, ![64]⟩ : Shape).Idx → EReal)
    (w2 : (⟨2, ![64, 65]⟩ : Shape).Idx → EReal) (b2 : (⟨1, ![64]⟩ : Shape).Idx → EReal) :
    (⟨2, ![262144, 64]⟩ : Shape).Idx → EReal := fun i =>
  rowOut (fwd (mat w0)) (fwd (mat w1)) (fwd (mat w2)) (tbias (mat w0) (vec b0) (scal t)) (tbias (mat w1) (vec b1) (scal t))
    (tbias (mat w2) (vec b2) (scal t)) (rowOf z ⟨(i 0).val, (i 0).isLt⟩) ⟨(i 1).val, (i 1).isLt⟩

/-- The backward result: entry `(r, 0)` is minus the inner product of the probe row `r`, pulled back through the
    gated layers, with itself. -/
def outD (t : (⟨1, ![1]⟩ : Shape).Idx → EReal) (z e : (⟨2, ![262144, 64]⟩ : Shape).Idx → EReal)
    (w0 : (⟨2, ![64, 65]⟩ : Shape).Idx → EReal) (b0 : (⟨1, ![64]⟩ : Shape).Idx → EReal)
    (w1 : (⟨2, ![64, 65]⟩ : Shape).Idx → EReal) (b1 : (⟨1, ![64]⟩ : Shape).Idx → EReal)
    (w2 : (⟨2, ![64, 65]⟩ : Shape).Idx → EReal) :
    (⟨2, ![262144, 1]⟩ : Shape).Idx → EReal := fun i =>
  rowNeg (fwd (mat w0)) (fwd (mat w1)) (tbias (mat w0) (vec b0) (scal t)) (tbias (mat w1) (vec b1) (scal t))
    (bwd (mat w0)) (bwd (mat w1)) (bwd (mat w2)) (rowOf z ⟨(i 0).val, (i 0).isLt⟩) (rowOf e ⟨(i 0).val, (i 0).isLt⟩)

end Cert.Mlp

end
-- ==== Proof.Blocks.lean ====
/-
  From blocks to arrays.

  The grid has 64 points; point `t` stages rows `4096 t … 4096 t + 4095` of the batch and of the probe signs, the
  whole of every weight and bias array, and writes back rows `4096 t … 4096 t + 4095` of both results.  So what point
  `t` writes at block entry `(p, q)` is the one-row mathematics at row `4096 t + p` of the arguments, which is entry
  `(4096 t + p, q)` of one whole-array function; the 64 blocks cover the result arrays (row `r` lies in block
  `r / 4096`), so each result array ends at that function.
-/
import proofs.«148937_j31044023616347_2_alg».proof.Proof.Gen.KernelIdeal.Value
import proofs.«148937_j31044023616347_2_alg».proof.Proof.Payload
import proofs.«148937_j31044023616347_2_alg».proof.Proof.Entry
import proofs.«148937_j31044023616347_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.Pay Cert.KernelIdeal.Entry

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 points -/

/-- The row-blocked windows sit at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weight and bias windows sit at block `(0, 0)` at every point. -/
theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## Each input block, entry by entry -/

/-- Window 0's block at point `t`: rows `4096 t + p` of the batch. -/
theorem blk0 (c : Dev nD) (t : Fin cfg0.N) (p : Fin 4096) (k : Fin 64) (r : Fin 262144) (hr : r.val = t.val * 4096 + p.val) :
    (iblk m c 0 t : S4096x64.Idx → EReal) (ix2 p k) = zrow m c r k := by
  unfold iblk
  rw [View.read_apply]
  refine (congrArg (V m c main_arg1 : S262144x64.Idx → EReal) ?_).trans (V1 m c r k)
  funext a
  apply Fin.ext
  match a with
  | ⟨0, _⟩ => show win0_0.index t 0 * 4096 + 1 * p.val = r.val; rw [(idx_rows t).1, hr]; omega
  | ⟨1, _⟩ => show win0_0.index t 1 * 64 + 1 * k.val = k.val; rw [(idx_rows t).2.1]; omega

/-- Window 1's block at point `t`: rows `4096 t + p` of the probe signs. -/
theorem blk1 (c : Dev nD) (t : Fin cfg0.N) (p : Fin 4096) (k : Fin 64) (r : Fin 262144) (hr : r.val = t.val * 4096 + p.val) :
    (iblk m c 1 t : S4096x64.Idx → EReal) (ix2 p k) = erow m c r k := by
  unfold iblk
  rw [View.read_apply]
  refine (congrArg (V m c main_v29 : S262144x64.Idx → EReal) ?_).trans (V29 m c r k)
  funext a
  apply Fin.ext
  match a with
  | ⟨0, _⟩ => show win0_1.index t 0 * 4096 + 1 * p.val = r.val; rw [(idx_rows t).2.2.1, hr]; omega
  | ⟨1, _⟩ => show win0_1.index t 1 * 64 + 1 * k.val = k.val; rw [(idx_rows t).2.2.2.1]; omega

/-- The weight and bias windows' blocks are their whole arrays. -/
theorem blk2 (c : Dev nD) (t : Fin cfg0.N) (a : Fin 64) (b : Fin 64) :
    (iblk m c 2 t : S64x64.Idx → EReal) (ix2 a b) = fwd (W0 m c) a b := by
  unfold iblk
  rw [View.read_apply]
  refine (congrArg (V m c main_v22 : S64x64.Idx → EReal) ?_).trans (V22 m c a b)
  funext d
  apply Fin.ext
  match d with
  | ⟨0, _⟩ => show win0_2.index t 0 * 64 + 1 * a.val = a.val; rw [(idx_fixed t).1.1]; omega
  | ⟨1, _⟩ => show win0_2.index t 1 * 64 + 1 * b.val = b.val; rw [(idx_fixed t).1.2]; omega

theorem blk3 (c : Dev nD) (t : Fin cfg0.N) (a : Fin 64) (b : Fin 64) :
    (iblk m c 3 t : S64x64.Idx → EReal) (ix2 a b) = bwd (W0 m c) a b := by
  unfold iblk
  rw [View.read_apply]
  refine (congrArg (V m c main_v23 : S64x64.Idx → EReal) ?_).trans (V23 m c a b)
  funext d
  apply Fin.ext
  match d with
  | ⟨0, _⟩ => show win0_3.index t 0 * 64 + 1 * a.val = a.val; rw [(idx_fixed t).2.1.1]; omega
  | ⟨1, _⟩ => show win0_3.index t 1 * 64 + 1 * b.val = b.val; rw [(idx_fixed t).2.1.2]; omega

theorem blk4 (c : Dev nD) (t : Fin cfg0.N) (a : Fin 64) (b : Fin 64) :
    (iblk m c 4 t : S64x64.Idx → EReal) (ix2 a b) = fwd (W1 m c) a b := by
  unfold iblk
  rw [View.read_apply]
  refine (congrArg (V m c main_v24 : S64x64.Idx → EReal) ?_).trans (V24 m c a b)
  funext d
  apply Fin.ext
  match d with
  | ⟨0, _⟩ => show win0_4.index t 0 * 64 + 1 * a.val = a.val; rw [(idx_fixed t).2.2.1.1]; omega
  | ⟨1, _⟩ => show win0_4.index t 1 * 64 + 1 * b.val = b.val; rw [(idx_fixed t).2.2.1.2]; omega

theorem blk5 (c : Dev nD) (t : Fin cfg0.N) (a : Fin 64) (b : Fin 64) :
    (iblk m c 5 t : S64x64.Idx → EReal) (ix2 a b) = bwd (W1 m c) a b := by
  unfold iblk
  rw [View.read_apply]
  refine (congrArg (V m c main_v25 : S64x64.Idx → EReal) ?_).trans (V25 m c a b)
  funext d
  apply Fin.ext
  match d with
  | ⟨0, _⟩ => show win0_5.index t 0 * 64 + 1 * a.val = a.val; rw [(idx_fixed t).2.2.2.1.1]; omega
  | ⟨1, _⟩ => show win0_5.index t 1 * 64 + 1 * b.val = b.val; rw [(idx_fixed t).2.2.2.1.2]; omega

theorem blk6 (c : Dev nD) (t : Fin cfg0.N) (a : Fin 64) (b : Fin 64) :
    (iblk m c 6 t : S64x64.Idx → EReal) (ix2 a b) = fwd (W2 m c) a b := by
  unfold iblk
  rw [View.read_apply]
  refine (congrArg (V m c main_v27 : S64x64.Idx → EReal) ?_).trans (V27 m c a b)
  funext d
  apply Fin.ext
  match d with
  | ⟨0, _⟩ => show win0_6.index t 0 * 64 + 1 * a.val = a.val; rw [(idx_fixed t).2.2.2.2.1.1]; omega
  | ⟨1, _⟩ => show win0_6.index t 1 * 64 + 1 * b.val = b.val; rw [(idx_fixed t).2.2.2.2.1.2]; omega

theorem blk7 (c : Dev nD) (t : Fin cfg0.N) (a : Fin 64) (b : Fin 64) :
    (iblk m c 7 t : S64x64.Idx → EReal) (ix2 a b) = bwd (W2 m c) a b := by
  unfold iblk
  rw [View.read_apply]
  refine (congrArg (V m c main_v28 : S64x64.Idx → EReal) ?_).trans (V28 m c a b)
  funext d
  apply Fin.ext
  match d with
  | ⟨0, _⟩ => show win0_7.index t 0 * 64 + 1 * a.val = a.val; rw [(idx_fixed t).2.2.2.2.2.1.1]; omega
  | ⟨1, _⟩ => show win0_7.index t 1 * 64 + 1 * b.val = b.val; rw [(idx_fixed t).2.2.2.2.2.1.2]; omega

theorem blk8 (c : Dev nD) (t : Fin cfg0.N) (b : Fin 64) :
    (iblk m c 8 t : S1x64.Idx → EReal) (ix2 (0 : Fin 1) b) = tbias (W0 m c) (b0 m c) (tt m c) b := by
  unfold iblk
  rw [View.read_apply]
  refine (congrArg (V m c main_v13 : S1x64.Idx → EReal) ?_).trans (V13 m c b)
  funext d
  apply Fin.ext
  match d with
  | ⟨0, _⟩ => show win0_8.index t 0 * 1 + 1 * 0 = 0; rw [(idx_fixed t).2.2.2.2.2.2.1.1]
  | ⟨1, _⟩ => show win0_8.index t 1 * 64 + 1 * b.val = b.val; rw [(idx_fixed t).2.2.2.2.2.2.1.2]; omega

theorem blk9 (c : Dev nD) (t : Fin cfg0.N) (b : Fin 64) :
    (iblk m c 9 t : S1x64.Idx → EReal) (ix2 (0 : Fin 1) b) = tbias (W1 m c) (b1 m c) (tt m c) b := by
  unfold iblk
  rw [View.read_apply]
  refine (congrArg (V m c main_v17 : S1x64.Idx → EReal) ?_).trans (V17 m c b)
  funext d
  apply Fin.ext
  match d with
  | ⟨0, _⟩ => show win0_9.index t 0 * 1 + 1 * 0 = 0; rw [(idx_fixed t).2.2.2.2.2.2.2.1.1]
  | ⟨1, _⟩ => show win0_9.index t 1 * 64 + 1 * b.val = b.val; rw [(idx_fixed t).2.2.2.2.2.2.2.1.2]; omega

theorem blk10 (c : Dev nD) (t : Fin cfg0.N) (b : Fin 64) :
    (iblk m c 10 t : S1x64.Idx → EReal) (ix2 (0 : Fin 1) b) = tbias (W2 m c) (b2 m c) (tt m c) b := by
  unfold iblk
  rw [View.read_apply]
  refine (congrArg (V m c main_v21 : S1x64.Idx → EReal) ?_).trans (V21 m c b)
  funext d
  apply Fin.ext
  match d with
  | ⟨0, _⟩ => show win0_10.index t 0 * 1 + 1 * 0 = 0; rw [(idx_fixed t).2.2.2.2.2.2.2.2.1]
  | ⟨1, _⟩ => show win0_10.index t 1 * 64 + 1 * b.val = b.val; rw [(idx_fixed t).2.2.2.2.2.2.2.2.2]; omega

/-! ## What the body leaves in each output buffer, entry by entry -/

/-- The forward output block at `(p, q)`: the forward mathematics of the block's row `p` over the loaded operands. -/
theorem out11_apply (x0 : FVec Ideal S4096x64 .f32) (x1 : FVec Ideal S4096x64 .bf16) (x2 : FVec Ideal S64x64 .f32)
    (x3 : FVec Ideal S64x64 .bf16) (x4 : FVec Ideal S64x64 .f32) (x5 x6 x7 : FVec Ideal S64x64 .bf16)
    (x8 x9 x10 : FVec Ideal S1x64 .f32) (p : Fin 4096) (q : Fin 64) :
    out0_11 (F := Ideal) x0 x1 x2 x3 x4 x5 x6 x7 x8 x9 x10 (ix2 p q)
      = rowOut (fun k j => x2 (ix2 k j)) (fun k j => x4 (ix2 k j)) (fun k j => x6 (ix2 k j))
          (fun j => x8 (ix2 (0 : Fin 1) j)) (fun j => x9 (ix2 (0 : Fin 1) j)) (fun j => x10 (ix2 (0 : Fin 1) j))
          (fun k => x0 (ix2 p k)) q := by
  unfold out0_11
  rw [View.canon_unit_zero hz]
  simp only [View.ld_unit_zero (S := S4096x64) hz, View.ld_unit_zero (S := S64x64) hz, View.ld_unit_zero (S := S1x64) hz]
  unfold k0_pay6 k0_pay8
  rw [shapeCast_self, shapeCast_self, pay1_apply]
  exact congrArg (fun f => aff _ _ (ramp f) q) (funext fun k => pay11_apply x0 x2 x4 x8 x9 p k)

/-- The backward output block at `(p, 0)`: the backward mathematics of the block's rows `p`. -/
theorem out12_apply (x0 : FVec Ideal S4096x64 .f32) (x1 : FVec Ideal S4096x64 .bf16) (x2 : FVec Ideal S64x64 .f32)
    (x3 : FVec Ideal S64x64 .bf16) (x4 : FVec Ideal S64x64 .f32) (x5 x6 x7 : FVec Ideal S64x64 .bf16)
    (x8 x9 x10 : FVec Ideal S1x64 .f32) (p : Fin 4096) (u : Fin 1) :
    out0_12 (F := Ideal) x0 x1 x2 x3 x4 x5 x6 x7 x8 x9 x10 (ix2 p u)
      = rowNeg (fun k j => x2 (ix2 k j)) (fun k j => x4 (ix2 k j))
          (fun j => x8 (ix2 (0 : Fin 1) j)) (fun j => x9 (ix2 (0 : Fin 1) j))
          (fun j k => x3 (ix2 j k)) (fun j k => x5 (ix2 j k)) (fun j k => x7 (ix2 j k))
          (fun k => x0 (ix2 p k)) (fun k => x1 (ix2 p k)) := by
  unfold out0_12
  rw [View.canon_unit_zero hz]
  simp only [View.ld_unit_zero (S := S4096x64) hz, View.ld_unit_zero (S := S64x64) hz, View.ld_unit_zero (S := S1x64) hz]
  unfold k0_pay3 k0_pay4 k0_pay5 k0_pay7
  rw [shapeCast_self, shapeCast_self, shapeCast_self, shapeCast_self, pay2_apply]
  unfold rowNeg rowBack
  refine congrArg (Z - ·) (Finset.sum_congr rfl fun k _ => ?_)
  refine congrArg (· * x1 (ix2 p k)) ?_
  have g1 : (fun k => k0_pay10 (F := Ideal) x0 x2 x8 (ix2 p k))
      = gate (pre1 (fun k j => x2 (ix2 k j)) (fun j => x8 (ix2 (0 : Fin 1) j)) (fun k => x0 (ix2 p k))) :=
    funext fun k => pay10_apply x0 x2 x8 p k
  have g2 : (fun k => Ideal.cmp .ogt (k0_pay11 (F := Ideal) x0 x2 x4 x8 x9 (ix2 p k)) (k0_pay12 (F := Ideal) (ix2 p k)))
      = gate (pre2 (fun k j => x2 (ix2 k j)) (fun k j => x4 (ix2 k j)) (fun j => x8 (ix2 (0 : Fin 1) j))
          (fun j => x9 (ix2 (0 : Fin 1) j)) (fun k => x0 (ix2 p k))) :=
    funext fun k => by rw [pay11_apply]; rfl
  rw [g1, g2]

/-! ## What point `t` writes back is block `t` of one whole-array function -/

/-- The two result arrays as functions of the launch memory's arguments. -/
abbrev Gz (c : Dev nD) : S262144x64.Idx → EReal :=
  outZ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev Gd (c : Dev nD) : S262144x1.Idx → EReal :=
  outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem t_lt (t : Fin cfg0.N) : t.val < 64 := Nat.lt_of_lt_of_eq t.isLt N_0

/-- The operand blocks at point `t`, as the argument's coordinates. -/
theorem opnds (c : Dev nD) (t : Fin cfg0.N) :
    (fun k j => (iblk m c 2 t : S64x64.Idx → EReal) (ix2 k j)) = fwd (W0 m c)
    ∧ (fun j k => (iblk m c 3 t : S64x64.Idx → EReal) (ix2 j k)) = bwd (W0 m c)
    ∧ (fun k j => (iblk m c 4 t : S64x64.Idx → EReal) (ix2 k j)) = fwd (W1 m c)
    ∧ (fun j k => (iblk m c 5 t : S64x64.Idx → EReal) (ix2 j k)) = bwd (W1 m c)
    ∧ (fun k j => (iblk m c 6 t : S64x64.Idx → EReal) (ix2 k j)) = fwd (W2 m c)
    ∧ (fun j k => (iblk m c 7 t : S64x64.Idx → EReal) (ix2 j k)) = bwd (W2 m c)
    ∧ (fun j => (iblk m c 8 t : S1x64.Idx → EReal) (ix2 (0 : Fin 1) j)) = tbias (W0 m c) (b0 m c) (tt m c)
    ∧ (fun j => (iblk m c 9 t : S1x64.Idx → EReal) (ix2 (0 : Fin 1) j)) = tbias (W1 m c) (b1 m c) (tt m c)
    ∧ (fun j => (iblk m c 10 t : S1x64.Idx → EReal) (ix2 (0 : Fin 1) j)) = tbias (W2 m c) (b2 m c) (tt m c) :=
  ⟨funext fun k => funext fun j => blk2 m c t k j, funext fun j => funext fun k => blk3 m c t j k,
   funext fun k => funext fun j => blk4 m c t k j, funext fun j => funext fun k => blk5 m c t j k,
   funext fun k => funext fun j => blk6 m c t k j, funext fun j => funext fun k => blk7 m c t j k,
   funext fun j => blk8 m c t j, funext fun j => blk9 m c t j, funext fun j => blk10 m c t j⟩

theorem flushed11_eq (c : Dev nD) (t : Fin cfg0.N) :
    (dats m 0 c).flushed 11 t = ((cfg0.win 11).blk t).view.read (Elt Ideal) (Gz m c) := by
  rw [Value.flushed11]
  funext y
  obtain ⟨p, q, rfl⟩ : ∃ (p : Fin 4096) (q : Fin 64), y = ix2 p q := ⟨y 0, y 1, eq_ix2 y⟩
  have ht := t_lt t
  obtain ⟨r, hr⟩ : ∃ r : Fin 262144, r.val = t.val * 4096 + p.val := ⟨⟨t.val * 4096 + p.val, by have := p.isLt; omega⟩, rfl⟩
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = Gz m c (((cfg0.win 11).blk t).view.emb (ix2 p q))
  have he : ((cfg0.win 11).blk t).view.emb (ix2 p q) = (ix2 r q : S262144x64.Idx) := by
    funext a
    apply Fin.ext
    match a with
    | ⟨0, _⟩ => show win0_11.index t 0 * 4096 + 1 * p.val = r.val; rw [(idx_rows t).2.2.2.2.1, hr]; omega
    | ⟨1, _⟩ => show win0_11.index t 1 * 64 + 1 * q.val = q.val; rw [(idx_rows t).2.2.2.2.2.1]; omega
  rw [he]
  refine (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  obtain ⟨e2, e3, e4, e5, e6, e7, e8, e9, e10⟩ := opnds m c t
  have e0 : (fun k => (iblk m c 0 t : S4096x64.Idx → EReal) (ix2 p k)) = zrow m c r := funext fun k => blk0 m c t p k r hr
  rw [e0, e2, e4, e6, e8, e9, e10]
  rfl

theorem flushed12_eq (c : Dev nD) (t : Fin cfg0.N) :
    (dats m 0 c).flushed 12 t = ((cfg0.win 12).blk t).view.read (Elt Ideal) (Gd m c) := by
  rw [Value.flushed12]
  funext y
  obtain ⟨p, u, rfl⟩ : ∃ (p : Fin 4096) (u : Fin 1), y = ix2 p u := ⟨y 0, y 1, eq_ix2 y⟩
  have ht := t_lt t
  obtain ⟨r, hr⟩ : ∃ r : Fin 262144, r.val = t.val * 4096 + p.val := ⟨⟨t.val * 4096 + p.val, by have := p.isLt; omega⟩, rfl⟩
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p u)
    = Gd m c (((cfg0.win 12).blk t).view.emb (ix2 p u))
  have he : ((cfg0.win 12).blk t).view.emb (ix2 p u) = (ix2 r u : S262144x1.Idx) := by
    funext a
    apply Fin.ext
    match a with
    | ⟨0, _⟩ => show win0_12.index t 0 * 4096 + 1 * p.val = r.val; rw [(idx_rows t).2.2.2.2.2.2.1, hr]; omega
    | ⟨1, _⟩ => show win0_12.index t 1 * 1 + 1 * u.val = u.val; rw [(idx_rows t).2.2.2.2.2.2.2]; omega
  rw [he]
  refine (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p u).trans ?_
  obtain ⟨e2, e3, e4, e5, e6, e7, e8, e9, e10⟩ := opnds m c t
  have e0 : (fun k => (iblk m c 0 t : S4096x64.Idx → EReal) (ix2 p k)) = zrow m c r := funext fun k => blk0 m c t p k r hr
  have e1 : (fun k => (iblk m c 1 t : S4096x64.Idx → EReal) (ix2 p k)) = erow m c r := funext fun k => blk1 m c t p k r hr
  rw [e0, e1, e2, e3, e4, e5, e7, e8, e9]
  rfl

/-! ## The blocks cover the result arrays -/

theorem cover11 (c : Dev nD) (i : S262144x64.Idx) :
    ∃ t : Fin cfg0.N, (cfg0.win 11).flush t = true ∧ i ∈ ((cfg0.win 11).blk t).view.set := by
  have hi0 : (i 0).val < 262144 := (i 0).isLt
  have hi1 : (i 1).val < 64 := (i 1).isLt
  obtain ⟨t, ht⟩ : ∃ t : Fin cfg0.N, t.val = (i 0).val / 4096 :=
    ⟨⟨(i 0).val / 4096, by rw [show cfg0.N = 64 from N_0]; omega⟩, rfl⟩
  refine ⟨t, flush0_11 t, ?_⟩
  show i ∈ ((View.whole main_v30_0).slice (win0_11.rect t)).set
  rw [View.set_slice_whole, Rect.mem_set_unit]
  intro a
  match a with
  | ⟨0, _⟩ =>
    show win0_11.index t 0 * 4096 ≤ (i 0).val ∧ (i 0).val < win0_11.index t 0 * 4096 + 4096
    rw [(idx_rows t).2.2.2.2.1, ht]; omega
  | ⟨1, _⟩ =>
    show win0_11.index t 1 * 64 ≤ (i 1).val ∧ (i 1).val < win0_11.index t 1 * 64 + 64
    rw [(idx_rows t).2.2.2.2.2.1]; omega

theorem cover12 (c : Dev nD) (i : S262144x1.Idx) :
    ∃ t : Fin cfg0.N, (cfg0.win 12).flush t = true ∧ i ∈ ((cfg0.win 12).blk t).view.set := by
  have hi0 : (i 0).val < 262144 := (i 0).isLt
  have hi1 : (i 1).val < 1 := (i 1).isLt
  obtain ⟨t, ht⟩ : ∃ t : Fin cfg0.N, t.val = (i 0).val / 4096 :=
    ⟨⟨(i 0).val / 4096, by rw [show cfg0.N = 64 from N_0]; omega⟩, rfl⟩
  refine ⟨t, flush0_12 t, ?_⟩
  show i ∈ ((View.whole main_v30_1).slice (win0_12.rect t)).set
  rw [View.set_slice_whole, Rect.mem_set_unit]
  intro a
  match a with
  | ⟨0, _⟩ =>
    show win0_12.index t 0 * 4096 ≤ (i 0).val ∧ (i 0).val < win0_12.index t 0 * 4096 + 4096
    rw [(idx_rows t).2.2.2.2.2.2.1, ht]; omega
  | ⟨1, _⟩ =>
    show win0_12.index t 1 * 1 ≤ (i 1).val ∧ (i 1).val < win0_12.index t 1 * 1 + 1
    rw [(idx_rows t).2.2.2.2.2.2.2]; omega

/-! ## The result arrays after the run -/

theorem final11 (c : Dev nD) : (dats m 0 c).arrAt 11 cfg0.N = Gz m c :=
  (dats m 0 c).arrAt_eq_of_cover 11 (Gz m c) (fun t _ => flushed11_eq m c t) (cover11 c)

theorem final12 (c : Dev nD) : (dats m 0 c).arrAt 12 cfg0.N = Gd m c :=
  (dats m 0 c).arrAt_eq_of_cover 12 (Gd m c) (fun t _ => flushed12_eq m c t) (cover12 c)

/-- The kernel's run with both results named: the forward and the backward array of the arguments, which end unchanged. -/
theorem run : θ_run defs (onTc (τ := τ) (main (F := Ideal))) ⟨m, fun _ => 0, ρ⟩ fun r => ∀ c : Dev nD,
      r.2.mem ((c : Thread nD τ).loc main_v30_0) = Gz m c
      ∧ r.2.mem ((c : Thread nD τ).loc main_v30_1) = Gd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final11 m c), (h c).2.1.trans (final12 m c), (h c).2.2⟩)
    (Value.run_blocks m ρ)

end Cert.KernelIdeal.Blocks

end
-- ==== Proof.RefValue.lean ====
/-
  The reference, read entry by entry.

  The reference prepends the time to each layer's input row (a concatenation along the columns), multiplies by the
  transposed 64 × 65 weight matrix and adds the bias: the joined spelling of a layer.  Its backward pass multiplies
  by the 65-column matrix and cuts off the time's column: the pull-back through the input columns.  Gates and ramps
  compare against and choose the same zero word as the kernel.  So at entry `(r, j)` the reference's first result is
  the forward mathematics of row `r` in the joined spelling, which `joined_eq_split` turns into the split one, and at
  `(r, 0)` its second result is `-(0 + Σ)` where the kernel has `0 - Σ`.
-/
import proofs.«148937_j31044023616347_2_alg».proof.Proof.Gen.ReferenceIdeal.Read
import proofs.«148937_j31044023616347_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Mlp

/-! ## The two matrix products and the concatenation at an entry -/

/-- A 65-column array times a 65 × 64 matrix, at `(r, j)`. -/
theorem dotF_apply (l : S262144x65.Idx → EReal) (rr : S65x64.Idx → EReal) (r : Fin 262144) (j : Fin 64) :
    Host.dotGeneral (F := Ideal) (φ₁ := .f32) (φ₂ := .f32) dot_S262144x65_S65x64_S262144x64_1_0_0_1_n_n none l rr (ix2 r j)
      = ∑ k : Fin 65, l (ix2 r k) * rr (ix2 k j) := by
  simp only [Host.dotGeneral]
  rw [Ideal.dotGeneral_apply, ← Equiv.sum_comp (ValueIdx.contrEquiv1 dot_S262144x65_S65x64_S262144x64_1_0_0_1_n_n 65 rfl rfl).symm]
  refine Finset.sum_congr rfl fun k _ => ?_
  have hk := ValueIdx.contrEquiv1_symm_val dot_S262144x65_S65x64_S262144x64_1_0_0_1_n_n 65 rfl rfl k
  have el : dot_S262144x65_S65x64_S262144x64_1_0_0_1_n_n.lhsIdx (ix2 r j) ((ValueIdx.contrEquiv1 dot_S262144x65_S65x64_S262144x64_1_0_0_1_n_n 65 rfl rfl).symm k) = ix2 r k := funext fun a => Fin.ext (by
    match a with
    | ⟨0, _⟩ => exact lhs_main_v5_0 _ _
    | ⟨1, _⟩ => exact (lhs_main_v5_1 _ _).trans hk)
  have er : dot_S262144x65_S65x64_S262144x64_1_0_0_1_n_n.rhsIdx (ix2 r j) ((ValueIdx.contrEquiv1 dot_S262144x65_S65x64_S262144x64_1_0_0_1_n_n 65 rfl rfl).symm k) = ix2 k j := funext fun a => Fin.ext (by
    match a with
    | ⟨0, _⟩ => exact (rhs_main_v5_0 _ _).trans hk
    | ⟨1, _⟩ => exact rhs_main_v5_1 _ _)
  rw [el, er]

/-- A 64-column array times the same 65 × 64 matrix contracted over its 64 columns, at `(r, k)`. -/
theorem dotB_apply (l : S262144x64.Idx → EReal) (rr : S65x64.Idx → EReal) (r : Fin 262144) (k : Fin 65) :
    Host.dotGeneral (F := Ideal) (φ₁ := .f32) (φ₂ := .f32) dot_S262144x64_S65x64_S262144x65_1_1_0_0_n_n none l rr (ix2 r k)
      = ∑ j : Fin 64, l (ix2 r j) * rr (ix2 k j) := by
  simp only [Host.dotGeneral]
  rw [Ideal.dotGeneral_apply, ← Equiv.sum_comp (ValueIdx.contrEquiv1 dot_S262144x64_S65x64_S262144x65_1_1_0_0_n_n 64 rfl rfl).symm]
  refine Finset.sum_congr rfl fun j _ => ?_
  have hk := ValueIdx.contrEquiv1_symm_val dot_S262144x64_S65x64_S262144x65_1_1_0_0_n_n 64 rfl rfl j
  have el : dot_S262144x64_S65x64_S262144x65_1_1_0_0_n_n.lhsIdx (ix2 r k) ((ValueIdx.contrEquiv1 dot_S262144x64_S65x64_S262144x65_1_1_0_0_n_n 64 rfl rfl).symm j) = ix2 r j := funext fun a => Fin.ext (by
    match a with
    | ⟨0, _⟩ => exact lhs_main_v31_0 _ _
    | ⟨1, _⟩ => exact (lhs_main_v31_1 _ _).trans hk)
  have er : dot_S262144x64_S65x64_S262144x65_1_1_0_0_n_n.rhsIdx (ix2 r k) ((ValueIdx.contrEquiv1 dot_S262144x64_S65x64_S262144x65_1_1_0_0_n_n 64 rfl rfl).symm j) = ix2 k j := funext fun a => Fin.ext (by
    match a with
    | ⟨0, _⟩ => exact rhs_main_v31_0 _ _
    | ⟨1, _⟩ => exact (rhs_main_v31_1 _ _).trans hk)
  rw [el, er]

/-- A column joined in front of 64 columns, at `(r, k)`: the column at `k = 0`, else column `k - 1` of the rest. -/
theorem cat_apply (a : S262144x1.Idx → EReal) (b : S262144x64.Idx → EReal) (r : Fin 262144) (k : Fin 65) :
    concatenate S262144x65 1 [⟨S262144x1, a⟩, ⟨S262144x64, b⟩] concatenates_S262144x1_S262144x64_S262144x65_d1 (ix2 r k)
      = (Fin.cases (a (ix2 r (0 : Fin 1))) (fun k' => b (ix2 r k')) k : EReal) := by
  refine Fin.cases ?_ (fun k' => ?_) k
  · rw [Fin.cases_zero]
    exact concatenate_pair_apply_left 1 a b concatenates_S262144x1_S262144x64_S262144x65_d1 (ix2 r (0 : Fin 65)) rfl (ix2 r (0 : Fin 1))
      (fun d => match d with | ⟨0, _⟩ => rfl | ⟨1, _⟩ => rfl)
  · rw [Fin.cases_succ]
    exact concatenate_pair_apply_right 1 a b concatenates_S262144x1_S262144x64_S262144x65_d1 (ix2 r k'.succ) rfl rfl (ix2 r k')
      (fun d => match d with | ⟨0, _⟩ => fun _ => rfl | ⟨1, _⟩ => fun h => absurd rfl h)
      (by show k'.val + 1 = k'.succ.val; rw [Fin.val_succ])

/-! ## The reference's building blocks at an entry -/

/-- The zero array the reference's ramps, gates and selections use. -/
abbrev zeros : S262144x64.Idx → EReal := val_main_call0_v0 (F := Ideal)

theorem zeros_apply (i : S262144x64.Idx) : zeros i = Z := by
  show val_main_call0_v0 (F := Ideal) i = Z
  rw [val_main_call0_v0_apply, val_main_call0_cst_apply]
  rfl

/-- The time broadcast down a column, at any row: the time. -/
theorem tcol_apply (x0 : S1.Idx → EReal) (r : Fin 262144) : val_main_v1 (F := Ideal) x0 (ix2 r (0 : Fin 1)) = scal x0 := by
  rw [val_main_v1_apply, val_main_v0_apply]
  exact congrArg x0 (funext fun a => match a with | ⟨0, _⟩ => rfl)

/-- One layer of the reference over a time column `tc` and an input array `h`. -/
def layer (tc : S262144x1.Idx → EReal) (h : S262144x64.Idx → EReal) (W : S64x65.Idx → EReal) (B : S64.Idx → EReal) :
    S262144x64.Idx → EReal :=
  addf (F := Ideal) (φ := .f32) (Host.dotGeneral (F := Ideal) (φ₁ := .f32) (φ₂ := .f32) dot_S262144x65_S65x64_S262144x64_1_0_0_1_n_n none
    (concatenate S262144x65 1 [⟨S262144x1, tc⟩, ⟨S262144x64, h⟩] concatenates_S262144x1_S262144x64_S262144x65_d1)
    (val_main_v4 (F := Ideal) W)) (val_main_v7 (F := Ideal) B)

/-- A layer at `(r, j)` is the joined spelling on row `r`. -/
theorem layer_apply (tc : S262144x1.Idx → EReal) (h : S262144x64.Idx → EReal) (W : S64x65.Idx → EReal) (B : S64.Idx → EReal)
    (t : EReal) (htc : ∀ r : Fin 262144, tc (ix2 r (0 : Fin 1)) = t) (r : Fin 262144) (j : Fin 64) :
    layer tc h W B (ix2 r j) = joined (mat W) (vec B) t (fun k => h (ix2 r k)) j := by
  unfold layer joined
  rw [addf_apply, dotF_apply, val_main_v7_apply, val_main_v6_apply]
  refine congr (congrArg HAdd.hAdd (Finset.sum_congr rfl fun k _ => ?_)) ?_
  · rw [cat_apply, htc, val_main_v4_apply]
    exact congrArg (_ * ·) (congrArg W (funext fun a => match a with | ⟨0, _⟩ => rfl | ⟨1, _⟩ => rfl))
  · exact congrArg B (funext fun a => match a with | ⟨0, _⟩ => rfl)

/-- The ramp, the gate and the selection against the zero array. -/
def act (a : S262144x64.Idx → EReal) : S262144x64.Idx → EReal := maximumf (F := Ideal) (φ := .f32) a zeros
def gateR (a : S262144x64.Idx → EReal) : S262144x64.Idx → BitVec 1 := cmpf (F := Ideal) (φ := .f32) .ogt a zeros
def sel (c : S262144x64.Idx → BitVec 1) (g : S262144x64.Idx → EReal) : S262144x64.Idx → EReal := select c g zeros

theorem act_apply (a : S262144x64.Idx → EReal) (i : S262144x64.Idx) : act a i = max (a i) Z := by
  unfold act; rw [maximumf_apply, zeros_apply]
theorem gateR_apply (a : S262144x64.Idx → EReal) (i : S262144x64.Idx) : gateR a i = Ideal.cmp .ogt (a i) Z := by
  unfold gateR; rw [cmpf_apply, zeros_apply]; rfl
theorem sel_apply (c : S262144x64.Idx → BitVec 1) (g : S262144x64.Idx → EReal) (i : S262144x64.Idx) :
    sel c g i = Scalar.select (c i) (g i) Z := by
  unfold sel; rw [select_apply, zeros_apply]

theorem select_congr (c : BitVec 1) (a b z : EReal) (h : a = b) : Scalar.select c a z = Scalar.select c b z := by rw [h]

/-- One pull-back step of the reference: times the 65-column matrix, the time's column cut off. -/
def back (g : S262144x64.Idx → EReal) (W : S64x65.Idx → EReal) : S262144x64.Idx → EReal :=
  extractStridedSlice S262144x64 ![0, 1] (Host.dotGeneral (F := Ideal) (φ₁ := .f32) (φ₂ := .f32) dot_S262144x64_S65x64_S262144x65_1_1_0_0_n_n none g
    (val_main_v4 (F := Ideal) W)) slices_S262144x65_S262144x64_0_1

theorem back_apply (g : S262144x64.Idx → EReal) (W : S64x65.Idx → EReal) (r : Fin 262144) (k : Fin 64) :
    back g W (ix2 r k) = pull (bwd (mat W)) (fun j => g (ix2 r j)) k := by
  unfold back
  refine (slice2_axis1_apply 1 _ slices_S262144x65_S262144x64_0_1 r k k.succ (by rw [Fin.val_succ, Nat.add_comm])).trans ?_
  rw [dotB_apply]
  refine Finset.sum_congr rfl fun j _ => ?_
  rw [val_main_v4_apply]
  exact congrArg (g (ix2 r j) * ·) (congrArg W (funext fun a => match a with | ⟨0, _⟩ => rfl | ⟨1, _⟩ => rfl))

/-! ## The forward pass -/

section
variable (x0 : S1.Idx → EReal) (x1 x2 : S262144x64.Idx → EReal) (x3 : S64x65.Idx → EReal) (x4 : S64.Idx → EReal)
  (x5 : S64x65.Idx → EReal) (x6 : S64.Idx → EReal) (x7 : S64x65.Idx → EReal) (x8 : S64.Idx → EReal)

def pre1R : S262144x64.Idx → EReal := layer (val_main_v1 (F := Ideal) x0) x1 x3 x4
def pre2R : S262144x64.Idx → EReal := layer (val_main_v1 (F := Ideal) x0) (act (pre1R x0 x1 x3 x4)) x5 x6
def outR : S262144x64.Idx → EReal := layer (val_main_v1 (F := Ideal) x0) (act (pre2R x0 x1 x3 x4 x5 x6)) x7 x8

theorem pre1R_apply (r : Fin 262144) (j : Fin 64) :
    pre1R x0 x1 x3 x4 (ix2 r j) = pre1 (fwd (mat x3)) (tbias (mat x3) (vec x4) (scal x0)) (rowOf x1 r) j := by
  unfold pre1R pre1
  rw [layer_apply _ _ _ _ (scal x0) (tcol_apply x0)]
  exact joined_eq_split _ _ _ _ _

theorem pre2R_apply (r : Fin 262144) (j : Fin 64) :
    pre2R x0 x1 x3 x4 x5 x6 (ix2 r j) = pre2 (fwd (mat x3)) (fwd (mat x5)) (tbias (mat x3) (vec x4) (scal x0))
      (tbias (mat x5) (vec x6) (scal x0)) (rowOf x1 r) j := by
  unfold pre2R pre2
  rw [layer_apply _ _ _ _ (scal x0) (tcol_apply x0), joined_eq_split]
  refine congrArg (fun f => aff _ _ f j) (funext fun k => ?_)
  rw [act_apply, pre1R_apply]
  rfl

theorem outR_apply (r : Fin 262144) (j : Fin 64) :
    outR x0 x1 x3 x4 x5 x6 x7 x8 (ix2 r j) = rowOut (fwd (mat x3)) (fwd (mat x5)) (fwd (mat x7)) (tbias (mat x3) (vec x4) (scal x0))
      (tbias (mat x5) (vec x6) (scal x0)) (tbias (mat x7) (vec x8) (scal x0)) (rowOf x1 r) j := by
  unfold outR rowOut
  rw [layer_apply _ _ _ _ (scal x0) (tcol_apply x0), joined_eq_split]
  refine congrArg (fun f => aff _ _ f j) (funext fun k => ?_)
  rw [act_apply, pre2R_apply]
  rfl

/-- The reference's first result is the forward array. -/
theorem forward_eq : val_main_v30 (F := Ideal) x0 x1 x3 x4 x5 x6 x7 x8 = outZ x0 x1 x3 x4 x5 x6 x7 x8 := by
  have e : val_main_v30 (F := Ideal) x0 x1 x3 x4 x5 x6 x7 x8 = outR x0 x1 x3 x4 x5 x6 x7 x8 := rfl
  rw [e]
  funext i
  obtain ⟨r, j, rfl⟩ : ∃ (r : Fin 262144) (j : Fin 64), i = ix2 r j := ⟨i 0, i 1, eq_ix2 i⟩
  rw [outR_apply]
  rfl

/-! ## The backward pass -/

def dzR : S262144x64.Idx → EReal :=
  back (sel (gateR (pre1R x0 x1 x3 x4)) (back (sel (gateR (pre2R x0 x1 x3 x4 x5 x6)) (back x2 x7)) x5)) x3

theorem dzR_apply (r : Fin 262144) (k : Fin 64) :
    dzR x0 x1 x2 x3 x4 x5 x6 x7 (ix2 r k) = rowBack (fwd (mat x3)) (fwd (mat x5)) (tbias (mat x3) (vec x4) (scal x0))
      (tbias (mat x5) (vec x6) (scal x0)) (bwd (mat x3)) (bwd (mat x5)) (bwd (mat x7)) (rowOf x1 r) (rowOf x2 r) k := by
  unfold dzR rowBack
  rw [back_apply]
  refine congrArg (fun f => pull _ f k) (funext fun j => ?_)
  rw [sel_apply, gateR_apply, pre1R_apply, back_apply]
  refine select_congr _ _ _ _ ?_
  refine congrArg (fun f => pull _ f j) (funext fun i => ?_)
  rw [sel_apply, gateR_apply, pre2R_apply, back_apply]
  rfl

/-- The reference's pulled-back rows are the steps above, composed. -/
theorem v33_eq : val_main_v33 (F := Ideal) x2 x7 = back x2 x7 := rfl
theorem v38_eq : val_main_v38 (F := Ideal) x0 x1 x2 x3 x4 x5 x6 x7
    = back (sel (gateR (pre2R x0 x1 x3 x4 x5 x6)) (back x2 x7)) x5 := rfl
theorem v43_eq : val_main_v43 (F := Ideal) x0 x1 x2 x3 x4 x5 x6 x7 = dzR x0 x1 x2 x3 x4 x5 x6 x7 := rfl

/-- The reference's second result is the backward array. -/
theorem backward_eq : val_main_v47 (F := Ideal) x0 x1 x2 x3 x4 x5 x6 x7 = outD x0 x1 x2 x3 x4 x5 x6 x7 := by
  funext i
  obtain ⟨r, u, rfl⟩ : ∃ (r : Fin 262144) (u : Fin 1), i = ix2 r u := ⟨i 0, i 1, eq_ix2 i⟩
  rw [val_main_v47_apply, val_main_v46_apply, val_main_v45_apply]
  unfold outD rowNeg
  rw [zero_sub_eq_neg_zero_add]
  refine congrArg Neg.neg (congr (congrArg HAdd.hAdd ?_) (Finset.sum_congr rfl fun k _ => ?_))
  · rfl
  · have ei : idx_main_v45 (idx_main_v46 (ix2 r u)) k = ix2 r k :=
      funext fun a => match a with | ⟨0, _⟩ => rfl | ⟨1, _⟩ => rfl
    rw [ei, val_main_v44_apply, v43_eq, dzR_apply]
    rfl

end

end Cert.ReferenceIdeal.RefValue

end
-- ==== Proof.lean ====
/-
  The kernel and its reference compute the same two arrays on the extended reals.

  Both programs are a three-layer network with a ramp between the layers and the time fed to every layer, evaluated on
  262144 rows, together with the probe row pulled backward through the same layers (gated by the sign of each
  ramp's input) and contracted with itself, negated.  The kernel folds the time's share of each layer into the bias
  before the region and works on 64 blocks of 4096 rows; the reference prepends the time to every layer's input and
  works on the whole batch.  Row by row the two are one function: the only law between them is that a sum over 65
  terms is its first term plus the sum of the other 64, re-associated with the bias (Proof/RowSpec.lean,
  `joined_eq_split`), and that `0 - s = -(0 + s)`; neither needs the inputs to be finite.

  Proof/Payload.lean reads the kernel body's two stored values at a block entry; Proof/Entry.lean reads the arrays the
  host operations before the region prepare; Proof/Blocks.lean joins the 64 blocks into the two whole result arrays;
  Proof/RefValue.lean reads the reference's two results at an entry; here the three frames and the two value claims
  are put together.  The idealization rewrote nothing, so its claim is `True`.
-/
import proofs.«148937_j31044023616347_2_alg».proof.Defs
import proofs.«148937_j31044023616347_2_alg».proof.Proof.Gen.Kernel
import proofs.«148937_j31044023616347_2_alg».proof.Proof.Gen.Kernel.Skeleton
import proofs.«148937_j31044023616347_2_alg».proof.Proof.Gen.Kernel.Launch
import proofs.«148937_j31044023616347_2_alg».proof.Proof.Gen.Kernel.Points
import proofs.«148937_j31044023616347_2_alg».proof.Proof.Gen.Kernel.Frame
import proofs.«148937_j31044023616347_2_alg».proof.Proof.Gen.KernelIdeal
import proofs.«148937_j31044023616347_2_alg».proof.Proof.Gen.KernelIdeal.Skeleton
import proofs.«148937_j31044023616347_2_alg».proof.Proof.Gen.KernelIdeal.Launch
import proofs.«148937_j31044023616347_2_alg».proof.Proof.Gen.KernelIdeal.Points
import proofs.«148937_j31044023616347_2_alg».proof.Proof.Gen.KernelIdeal.Frame
import proofs.«148937_j31044023616347_2_alg».proof.Proof.Gen.ReferenceIdeal
import proofs.«148937_j31044023616347_2_alg».proof.Proof.Gen.Pre_finite_inputs
import proofs.«148937_j31044023616347_2_alg».proof.Proof.Gen.KernelIdeal.Value
import proofs.«148937_j31044023616347_2_alg».proof.Proof.Gen.ReferenceIdeal.Run
import proofs.«148937_j31044023616347_2_alg».proof.Proof.Gen.ReferenceIdeal.Read
import proofs.«148937_j31044023616347_2_alg».proof.Proof.Blocks
import proofs.«148937_j31044023616347_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the forward array and the backward array of their (equal) arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v30_eq, Cert.ReferenceIdeal.RefValue.forward_eq, h0, h1, h3, h4, h5, h6, h7, h8]
  · obtain ⟨h0, h1, h2, h3, h4, h5, h6, h7, h8⟩ := hagree c
    rw [Cert.ReferenceIdeal.Read.val_main_v47_eq, Cert.ReferenceIdeal.RefValue.backward_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
